-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S512x128 : Shape := ⟨2, ![512, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x128 .f32) (main_arg1 : FVec F S512x128 .f32) (main_arg2 : FVec F S512x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S2048x128 : Shape := ⟨2, ![2048, 128]⟩
abbrev S512x128 : Shape := ⟨2, ![512, 128]⟩
abbrev S2048x512 : Shape := ⟨2, ![2048, 512]⟩
abbrev S256x128 : Shape := ⟨2, ![256, 128]⟩
abbrev S256x512 : Shape := ⟨2, ![256, 512]⟩
abbrev S16x128 : Shape := ⟨2, ![16, 128]⟩
abbrev S16x1x128 : Shape := ⟨3, ![16, 1, 128]⟩
abbrev S1x512x128 : Shape := ⟨3, ![1, 512, 128]⟩
abbrev S16x512x128 : Shape := ⟨3, ![16, 512, 128]⟩
abbrev S16x512 : Shape := ⟨2, ![16, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S512x128, .f32⟩
  | .hbm, ⟨3, _⟩ => ⟨S2048x512, .f32⟩
  | .local _ .vmem, ⟨0, _⟩ => ⟨S256x128, .f32⟩
  | .local _ .vmem, ⟨1, _⟩ => ⟨S256x128, .f32⟩
  | .local _ .vmem, ⟨2, _⟩ => ⟨S512x128, .f32⟩
  | .local _ .vmem, ⟨3, _⟩ => ⟨S512x128, .f32⟩
  | .local _ .vmem, ⟨4, _⟩ => ⟨S256x512, .f32⟩
  | .local _ .vmem, ⟨5, _⟩ => ⟨S256x512, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32_4 : BitVec 32 := 16#32
  let v3 : BitVec 32 := Scalar.muli arg5 c16_i32_4
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32_4 : BitVec 32 := 16#32
  let v3 : BitVec 32 := Scalar.muli arg5 c16_i32_4
  let v4 : BitVec 32 := v3
  let v5 : Index := Scalar.indexCast v4
  let c0_5 : Index := 0#32
  ![v5.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32_4 : BitVec 32 := 16#32
  let v3 : BitVec 32 := Scalar.muli arg5 c16_i32_4
  let v4 : BitVec 32 := v3
  let v19 : Index := Scalar.indexCast v4
  let c0_6 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x128_S512x128_0_0 : ∀ a, (![0, 0] : Fin 2 → Nat) a + S512x128.size a ≤ S512x128.size a
  h_S512x128 : 0 < S512x128.numel
  h_S16x128 : 0 < S16x128.numel
  shapeCasts_S16x128_S16x1x128 : S16x128.ShapeCasts S16x1x128
  shapeCasts_S512x128_S1x512x128 : S512x128.ShapeCasts S1x512x128
  broadcasts_S16x1x128_S16x512x128 : S16x1x128.Broadcasts S16x512x128
  broadcasts_S1x512x128_S16x512x128 : S1x512x128.Broadcasts S16x512x128
  reduces_S16x512x128_S16x512 : S16x512x128.Reduces [2] S16x512
  h_S16x512 : 0 < S16x512.numel
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128.size a ≤ S256x128.size a
  k0_off2_inb : ∀ k0_t1 : Fin k0_t1_loop.trips, ∀ a, (k0_off2 k0_t1) a + S16x512.size a ≤ S256x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S2048x128.size a
  hwx0_0 : ∀ i : grid0.Coords, EltTy.bits .f32 = 32 ∨ (Rect.block (s := S2048x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x512.size a
  hwx0_3 : ∀ i : grid0.Coords, EltTy.bits .f32 = 32 ∨ (Rect.block (s := S2048x512) S256x512.size (cc0_transform_3 i) (hinb0_3 i)).WholeWords (EltTy.packing .f32)

variable [Facts₀]

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128 : Shape := ⟨2, ![2048, 128]⟩
abbrev S512x128 : Shape := ⟨2, ![512, 128]⟩
abbrev S2048x1x128 : Shape := ⟨3, ![2048, 1, 128]⟩
abbrev S1x512x128 : Shape := ⟨3, ![1, 512, 128]⟩
abbrev S2048x512x128 : Shape := ⟨3, ![2048, 512, 128]⟩
abbrev S_ : Shape := ⟨0, ![]⟩
abbrev S2048x512 : Shape := ⟨2, ![2048, 512]⟩

abbrev nBuf : Space → Nat
  | .hbm => 18
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S512x128, .f32⟩
  | .hbm, ⟨3, _⟩ => ⟨S2048x1x128, .f32⟩
  | .hbm, ⟨4, _⟩ => ⟨S1x512x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | .hbm, ⟨8, _⟩ => ⟨S_, .f32⟩
  | .hbm, ⟨9, _⟩ => ⟨S2048x512, .f32⟩
  | .hbm, ⟨10, _⟩ => ⟨S1x512x128, .f32⟩
  | .hbm, ⟨11, _⟩ => ⟨S2048x1x128, .f32⟩
  | .hbm, ⟨12, _⟩ => ⟨S2048x512x128, .f32⟩
  | .hbm, ⟨13, _⟩ => ⟨S2048x512x128, .f32⟩
  | .hbm, ⟨14, _⟩ => ⟨S2048x512x128, .f32⟩
  | .hbm, ⟨15, _⟩ => ⟨S_, .f32⟩
  | .hbm, ⟨16, _⟩ => ⟨S2048x512, .f32⟩
  | .hbm, ⟨17, _⟩ => ⟨S2048x512, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S512x128_S1x512x128_1_2 : S512x128.BroadcastsInDim S1x512x128 (![1, 2] : Fin 2 → Fin S1x512x128.rank)
  bcast_S2048x1x128_S2048x512x128_0_1_2 : S2048x1x128.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  reducesTo_S2048x512x128_S2048x512_d2 : S2048x512x128.ReducesTo [2] S2048x512
  h_S_ : 0 < S_.numel

variable [Facts₀]

class Facts : Prop extends Facts₀ where

variable [Facts]
-- ==== Proof.Spec.lean ====
/-
  The function both programs compute, on the extended reals.

  For a query row `x q` and a box with lower corner `lo u` and upper corner `hi u`, the entry at `(q, u)` is the
  smallest of the `2·D` signed distances `x q d − lo u d` and `hi u d − x q d`, taken from `+∞`:
      margin q u = min_d min (x q d − lo u d) (hi u d − x q d).
  One program takes the minimum over `d` of the pointwise minimum of the two distances; the other takes the two
  minima over `d` separately and then the smaller of them. They agree because `min` is commutative, associative and
  idempotent: a minimum of pairwise minima is the minimum of the two minima (`fold_min_min`). No entry has to be
  finite for this.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The value every minimum starts from: the f32 pattern of `+∞`, read at the exact instance. -/
abbrev start : EReal := Ideal.ofBits .f32 0x7F800000#32

/-- The smallest signed distance of row `q` of `x` to the faces of box `u`: over the `D` coordinates, the minimum of
    `x q d − lo u d` and `hi u d − x q d`. -/
def margin {Q U D : Nat} (x : (⟨2, ![Q, D]⟩ : Shape).Idx → EReal) (lo hi : (⟨2, ![U, D]⟩ : Shape).Idx → EReal)
    (q : Fin Q) (u : Fin U) : EReal :=
  (Finset.univ : Finset (Fin D)).fold min start
    (fun d => min (x (ix2 q d) - lo (ix2 u d)) (hi (ix2 u d) - x (ix2 q d)))

/-- The whole table of margins, one entry per (row, box). -/
def margins {Q U D : Nat} (x : (⟨2, ![Q, D]⟩ : Shape).Idx → EReal) (lo hi : (⟨2, ![U, D]⟩ : Shape).Idx → EReal) :
    (⟨2, ![Q, U]⟩ : Shape).Idx → EReal :=
  fun i => margin x lo hi (i 0) (i 1)

theorem margins_apply {Q U D : Nat} (x : (⟨2, ![Q, D]⟩ : Shape).Idx → EReal) (lo hi : (⟨2, ![U, D]⟩ : Shape).Idx → EReal)
    (q : Fin Q) (u : Fin U) : margins x lo hi (ix2 q u) = margin x lo hi q u := rfl

/-- A margin depends only on the row of `x` and the two corners of the box it is taken at: equal rows and equal
    corners, read in whatever arrays they sit, give equal margins. -/
theorem margin_congr {Q Q' U U' D : Nat} (x : (⟨2, ![Q, D]⟩ : Shape).Idx → EReal) (x' : (⟨2, ![Q', D]⟩ : Shape).Idx → EReal)
    (lo hi : (⟨2, ![U, D]⟩ : Shape).Idx → EReal) (lo' hi' : (⟨2, ![U', D]⟩ : Shape).Idx → EReal)
    (q : Fin Q) (q' : Fin Q') (u : Fin U) (u' : Fin U')
    (hx : ∀ d : Fin D, x (ix2 q d) = x' (ix2 q' d)) (hlo : ∀ d : Fin D, lo (ix2 u d) = lo' (ix2 u' d))
    (hhi : ∀ d : Fin D, hi (ix2 u d) = hi' (ix2 u' d)) :
    margin x lo hi q u = margin x' lo' hi' q' u' := by
  unfold margin
  exact Finset.fold_congr fun d _ => by rw [hx d, hlo d, hhi d]

/-- A minimum of pairwise minima is the smaller of the two minima: `min` is commutative and associative, and the
    common starting value is absorbed because `min b b = b`. -/
theorem fold_min_min {ι : Type} (s : Finset ι) (b : EReal) (f g : ι → EReal) :
    s.fold min b (fun k => min (f k) (g k)) = min (s.fold min b f) (s.fold min b g) := by
  have h := Finset.fold_op_distrib (op := min) (s := s) (f := f) (g := g) (b₁ := b) (b₂ := b)
  rwa [min_self] at h

/-- The exact instance's `minimumf` is `min`, also as the operation of a fold. -/
theorem fold_minimumf {ι : Type} (s : Finset ι) (b : EReal) (f : ι → EReal) :
    s.fold (FloatOps.minimumf (F := Ideal) (φ := .f32)) b f = s.fold min b f := rfl

end Cert.Spec

end
-- ==== Proof.RefValue.lean ====
/-
  The reference's result is the table of margins.

  The reference program forms the two tables of signed distances over all (q, u, d),
      a (q, u, d) = x q d − lo u d      and      b (q, u, d) = hi u d − x q d,
  takes the minimum of each over the last coordinate d, starting from +∞, and then the smaller of the two minima:
      out (q, u) = min (min_d a (q, u, d)) (min_d b (q, u, d)).
  Each table is read at an index by following its broadcasts back to the arguments; each minimum over the last axis is
  a fold over d : Fin 128 of the table at (q, u, d); and the smaller of two folds of min from a common start is the
  fold of the pairwise min (Cert.Spec.fold_min_min), which is the margin.
-/
import proofs.«103260_j6193342841089_2_alg».proof.Proof.Spec
import proofs.«103260_j6193342841089_2_alg».proof.Proof.Gen.ReferenceIdeal.Read
import Idealize.ShloMosaic.Lib.ValueIdx
import Idealize.ShloMosaic.PureOps.Ideal.Laws
import Idealize.ShloMosaic.PureOps.Reduce
import Idealize.ShloMosaic.Lib.Pipeline.Value

noncomputable section

namespace Cert.RefValue

open Idealize.ShloMosaic Idealize.ShloMosaic.ValueIdx Cert.ReferenceIdeal Cert.ReferenceIdeal.Gen Cert.ReferenceIdeal.Read

/-- Removing the last axis of [2048, 512, 128] leaves [2048, 512]. -/
theorem reduces : S2048x512x128.Reduces [2] S2048x512 := by decide

/-- The index over (q, u) whose coordinate on the removed axis is d is (q, u, d). -/
theorem lift_eq (q : Fin 2048) (u : Fin 512) (d : Fin 128) : reduces.lift (ix2 q u) d = ix3 q u d := by
  funext a
  match a with
  | ⟨0, _⟩ => rfl
  | ⟨1, _⟩ => rfl
  | ⟨2, _⟩ => rfl

/-- The first table at (q, u, d): x is broadcast along u and lo along q, so the entry is x q d − lo u d. -/
theorem v4_at (x0 : FVec Ideal S2048x128 .f32) (x1 : FVec Ideal S512x128 .f32) (q : Fin 2048) (u : Fin 512)
    (d : Fin 128) : val_main_v4 (F := Ideal) x0 x1 (ix3 q u d) = x0 (ix2 q d) - x1 (ix2 u d) := by
  have e0 : idx_main_v0 (idx_main_v2 (ix3 q u d)) = ix2 q d := by
    funext a
    match a with
    | ⟨0, _⟩ => rfl
    | ⟨1, _⟩ => rfl
  have e1 : idx_main_v1 (idx_main_v3 (ix3 q u d)) = ix2 u d := by
    funext a
    match a with
    | ⟨0, _⟩ => rfl
    | ⟨1, _⟩ => rfl
  rw [val_main_v4_apply, val_main_v2_apply, val_main_v0_apply, val_main_v3_apply, val_main_v1_apply, e0, e1]
  rfl

/-- The second table at (q, u, d): hi is broadcast along q and x along u, so the entry is hi u d − x q d. -/
theorem v10_at (x0 : FVec Ideal S2048x128 .f32) (x2 : FVec Ideal S512x128 .f32) (q : Fin 2048) (u : Fin 512)
    (d : Fin 128) : val_main_v10 (F := Ideal) x0 x2 (ix3 q u d) = x2 (ix2 u d) - x0 (ix2 q d) := by
  have e0 : idx_main_v6 (idx_main_v8 (ix3 q u d)) = ix2 u d := by
    funext a
    match a with
    | ⟨0, _⟩ => rfl
    | ⟨1, _⟩ => rfl
  have e1 : idx_main_v7 (idx_main_v9 (ix3 q u d)) = ix2 q d := by
    funext a
    match a with
    | ⟨0, _⟩ => rfl
    | ⟨1, _⟩ => rfl
  rw [val_main_v10_apply, val_main_v8_apply, val_main_v6_apply, val_main_v9_apply, val_main_v7_apply, e0, e1]
  rfl

/-- The minimum of the first table over its last axis, at (q, u): the fold of min from +∞ over d of x q d − lo u d. -/
theorem v5_at (x0 : FVec Ideal S2048x128 .f32) (x1 : FVec Ideal S512x128 .f32) (q : Fin 2048) (u : Fin 512) :
    val_main_v5 (F := Ideal) x0 x1 (ix2 q u)
      = (Finset.univ : Finset (Fin 128)).fold min Cert.Spec.start (fun d => x0 (ix2 q d) - x1 (ix2 u d)) := by
  have e : val_main_v4 (F := Ideal) x0 x1 ∘ reduces.lift (ix2 q u) = fun d => x0 (ix2 q d) - x1 (ix2 u d) :=
    funext fun d => (congrArg (val_main_v4 (F := Ideal) x0 x1) (lift_eq q u d)).trans (v4_at x0 x1 q u d)
  refine (Host.reduce_eq_fold_single (FloatOps.minimumf (F := Ideal) (φ := .f32)) (val_main_v4 (F := Ideal) x0 x1) (val_main_cst (F := Ideal))
    reducesTo_S2048x512x128_S2048x512_d2 reduces h_S_ (ix2 q u)).trans ?_
  rw [e]
  rfl

/-- The minimum of the second table over its last axis, at (q, u): the fold of min from +∞ over d of hi u d − x q d. -/
theorem v11_at (x0 : FVec Ideal S2048x128 .f32) (x2 : FVec Ideal S512x128 .f32) (q : Fin 2048) (u : Fin 512) :
    val_main_v11 (F := Ideal) x0 x2 (ix2 q u)
      = (Finset.univ : Finset (Fin 128)).fold min Cert.Spec.start (fun d => x2 (ix2 u d) - x0 (ix2 q d)) := by
  have e : val_main_v10 (F := Ideal) x0 x2 ∘ reduces.lift (ix2 q u) = fun d => x2 (ix2 u d) - x0 (ix2 q d) :=
    funext fun d => (congrArg (val_main_v10 (F := Ideal) x0 x2) (lift_eq q u d)).trans (v10_at x0 x2 q u d)
  refine (Host.reduce_eq_fold_single (FloatOps.minimumf (F := Ideal) (φ := .f32)) (val_main_v10 (F := Ideal) x0 x2) (val_main_cst_0 (F := Ideal))
    reducesTo_S2048x512x128_S2048x512_d2 reduces h_S_ (ix2 q u)).trans ?_
  rw [e]
  rfl

/-- The reference's result is the table of margins: at (q, u) it is the smaller of the two minima over d, and the
    smaller of two minima from a common start is the minimum of the pairwise minima. -/
theorem reference_eq (x0 : FVec Ideal Cert.ReferenceIdeal.S2048x128 .f32) (x1 x2 : FVec Ideal Cert.ReferenceIdeal.S512x128 .f32) :
    Cert.ReferenceIdeal.Read.val_main_v12 (F := Ideal) x0 x1 x2 = Cert.Spec.margins x0 x1 x2 := by
  funext i
  obtain ⟨q, u, rfl⟩ : ∃ (q : Fin 2048) (u : Fin 512), i = ix2 q u := ⟨i 0, i 1, eq_ix2 i⟩
  rw [Cert.Spec.margins_apply, val_main_v12_apply, v5_at, v11_at]
  exact (Cert.Spec.fold_min_min _ _ _ _).symm

end Cert.RefValue

end
-- ==== Proof.Payload.lean ====
/-
  The kernel body's arithmetic, read at an index, is a margin.

  One step of the kernel holds 16 rows `x p` of the queries and all 512 boxes, with lower corners `lo u` and upper
  corners `hi u`. It lays the rows out as a [16, 1, 128] block and each table of corners as a [1, 512, 128] block,
  repeats both to [16, 512, 128], and forms at every `(p, u, d)`
      min (x p d − lo u d) (hi u d − x p d);
  then it takes the minimum over the last axis `d`, starting from `+∞`. Read at `(p, u)` the result is therefore
      min_d min (x p d − lo u d) (hi u d − x p d) = margin x lo hi p u.

  Three facts are used. A reshape keeps the row-major position, and `(p, d)` in [16, 128] sits where `(p, 0, d)` sits
  in [16, 1, 128] (both at `128·p + d`), likewise `(u, d)` in [512, 128] and `(0, u, d)` in [1, 512, 128] (both at
  `128·u + d`). A repetition along a unit axis reads the operand at coordinate `0` on that axis and at the same
  coordinates elsewhere. And because `min` is commutative and associative, a minimum over the last axis, read at
  `(p, u)`, is the fold of `min` over `d` of the entries at `(p, u, d)`, in any order.
-/
import proofs.«103260_j6193342841089_2_alg».proof.Proof.Spec
import proofs.«103260_j6193342841089_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen

/-! ## A minimum over the last of three axes -/

/-- Over the last of three axes, the index above `(p, u)` whose coordinate on that axis is `d` is `(p, u, d)`. -/
theorem lift_last (h : S16x512x128.Reduces [2] S16x512) (p : Fin 16) (u : Fin 512) (d : Fin 128) :
    h.lift (ix2 p u) d = ix3 p u d :=
  funext fun c => match c with
    | ⟨0, _⟩ => Fin.ext rfl
    | ⟨1, _⟩ => Fin.ext rfl
    | ⟨2, _⟩ => Fin.ext rfl

/-- A minimum over the last axis of a [16, 512, 128] block, started from the f32 pattern of `+∞`, read at `(p, u)`:
    the fold of `min` from `+∞` over `d` of the block's entries at `(p, u, d)`. The entries above `(p, u)` are exactly
    the images of the 128 coordinates `d`, each once, and `min` does not depend on the order. -/
theorem reduce_last (src : FVec Ideal S16x512x128 .f32) (h : S16x512x128.Reduces [2] S16x512)
    (hφ : FKind.Formats .f32) (hacc : (0x7F800000#32 : BitVec 32) = FKind.minimumf.neutral .f32 hφ)
    (p : Fin 16) (u : Fin 512) :
    multiReduction (F := Ideal) .minimumf [2] S16x512 src 0x7F800000#32 h hφ hacc (ix2 p u)
      = (Finset.univ : Finset (Fin 128)).fold min Cert.Spec.start (fun d => src (ix3 p u d)) := by
  refine (multiReduction_minimumf_eq_fold src _ h hφ hacc (ix2 p u)).trans ?_
  refine (h.fold_filter_drop_single _ _ src (ix2 p u)).trans ?_
  exact congrArg (fun f => (Finset.univ : Finset (Fin 128)).fold min Cert.Spec.start f)
    (funext fun d => congrArg src (lift_last h p u d))

/-! ## The two layouts, read at `(p, u, d)` -/

/-- The 16 rows, given a unit middle axis and repeated along it 512 times, read at `(p, u, d)`: row `p` at `d`,
    whatever `u` is. The repetition reads the [16, 1, 128] block at `(p, 0, d)`; that entry and `(p, d)` of the
    [16, 128] block both sit at row-major position `128·p + d`. -/
theorem rows_apply {α : Type} (x : S16x128.Idx → α) (p : Fin 16) (u : Fin 512) (d : Fin 128) :
    broadcastTo S16x512x128 (shapeCast S16x1x128 x shapeCasts_S16x128_S16x1x128) broadcasts_S16x1x128_S16x512x128
      (ix3 p u d) = x (ix2 p d) := by
  refine (broadcastTo_apply _ broadcasts_S16x1x128_S16x512x128 (ix3 p u d) (ix3 p (0 : Fin 1) d) (fun a => match a with
    | ⟨0, _⟩ => by show p.val = if (16 : Nat) = 1 then 0 else p.val; rw [if_neg (by decide)]
    | ⟨1, _⟩ => by show 0 = if (1 : Nat) = 1 then 0 else u.val; rw [if_pos rfl]
    | ⟨2, _⟩ => by show d.val = if (128 : Nat) = 1 then 0 else d.val; rw [if_neg (by decide)])).trans ?_
  refine shapeCast_apply x shapeCasts_S16x128_S16x1x128 (ix3 p (0 : Fin 1) d) (ix2 p d) ?_
  rw [Shape.rowMajor_val_two, Shape.rowMajor_val_three]
  show p.val * 128 + d.val = (p.val * 1 + 0) * 128 + d.val
  omega

/-- A table of 512 corners, given a unit leading axis and repeated along it 16 times, read at `(p, u, d)`: corner
    `u` at `d`, whatever `p` is. The repetition reads the [1, 512, 128] block at `(0, u, d)`; that entry and `(u, d)`
    of the [512, 128] table both sit at row-major position `128·u + d`. -/
theorem boxes_apply {α : Type} (w : S512x128.Idx → α) (p : Fin 16) (u : Fin 512) (d : Fin 128) :
    broadcastTo S16x512x128 (shapeCast S1x512x128 w shapeCasts_S512x128_S1x512x128) broadcasts_S1x512x128_S16x512x128
      (ix3 p u d) = w (ix2 u d) := by
  refine (broadcastTo_apply _ broadcasts_S1x512x128_S16x512x128 (ix3 p u d) (ix3 (0 : Fin 1) u d) (fun a => match a with
    | ⟨0, _⟩ => by show 0 = if (1 : Nat) = 1 then 0 else p.val; rw [if_pos rfl]
    | ⟨1, _⟩ => by show u.val = if (512 : Nat) = 1 then 0 else u.val; rw [if_neg (by decide)]
    | ⟨2, _⟩ => by show d.val = if (128 : Nat) = 1 then 0 else d.val; rw [if_neg (by decide)])).trans ?_
  refine shapeCast_apply w shapeCasts_S512x128_S1x512x128 (ix3 (0 : Fin 1) u d) (ix2 u d) ?_
  rw [Shape.rowMajor_val_two, Shape.rowMajor_val_three]
  show u.val * 128 + d.val = (0 * 512 + u.val) * 128 + d.val
  omega

/-! ## The body's stored value -/

/-- The value one step stores, read at `(p, u)`, is the margin of row `p` of the loaded rows to box `u`: the minimum
    over `d` reads the pointwise minimum at `(p, u, d)`, whose two arguments are differences of a repeated row and a
    repeated corner, `x p d − lo u d` and `hi u d − x p d`. -/
theorem pay1_apply (v0 v1 : Vec Ideal Cert.KernelIdeal.S512x128 .f32) (v6 : Vec Ideal Cert.KernelIdeal.S16x128 .f32) (p : Fin 16) (u : Fin 512) :
    Cert.KernelIdeal.Gen.k0_pay1 (F := Ideal) v0 v1 v6 (Idealize.ShloMosaic.ValueIdx.ix2 p u) = Cert.Spec.margin v6 v0 v1 p u := by
  unfold Cert.KernelIdeal.Gen.k0_pay1
  refine (reduce_last _ reduces_S16x512x128_S16x512 _ _ p u).trans ?_
  unfold Cert.Spec.margin
  refine congrArg (fun f => (Finset.univ : Finset (Fin 128)).fold min Cert.Spec.start f) (funext fun d => ?_)
  exact congrArg₂ min (congrArg₂ (· - ·) (rows_apply v6 p u d) (boxes_apply v0 p u d))
    (congrArg₂ (· - ·) (boxes_apply v1 p u d) (rows_apply v6 p u d))

end Cert.KernelIdeal.Payload

end
-- ==== Proof.BlockValue.lean ====
/-
  What one grid point's body leaves in the output block: the table of margins of the point's 256 rows of `x` against
  all 512 boxes.

  The body walks the block in 16 trips. Trip `k` loads rows `16·k … 16·k + 15` of the point's block of `x`, forms for
  each of them and each box the margin over the 128 coordinates, and stores the 16 × 512 result at rows
  `16·k … 16·k + 15` of the output block. So every stored piece is a restriction of ONE function of the block index,
  `(r, u) ↦ margin (row r) (box u)`; the 16 pieces tile the block, hence the block ends holding that function,
  whatever it held before and in whatever order the trips ran.
-/
import proofs.«103260_j6193342841089_2_alg».proof.Proof.Spec
import proofs.«103260_j6193342841089_2_alg».proof.Proof.Payload
import proofs.«103260_j6193342841089_2_alg».proof.Proof.Gen.KernelIdeal.Frame
import Idealize.ShloMosaic.Lib.Pipeline.Value
import Idealize.ShloMosaic.Lib.Pipeline.FrameBody
import Idealize.ShloMosaic.Lib.ValueIdx

noncomputable section

namespace Cert.KernelIdeal.BlockValue

open Cert.KernelIdeal Cert.KernelIdeal.Gen Idealize.ShloMosaic Idealize.ShloMosaic.TcCoe Idealize.SL.Sem
open Idealize.ShloMosaic.ValueIdx

variable {F : FTy → Type} [FloatOps F]

/-- The zero offsets of a whole-buffer load, in the spelling the library's whole-rectangle lemmas take. -/
theorem zeros2 : (![0, 0] : Fin 2 → Nat) = fun _ => 0 := funext fun a => by fin_cases a <;> rfl

/-- ONE TRIP's store, read off the trip's run: a single piece, at rows `16·k …` of the output block, whose value is the
    body's arithmetic applied to the two box arrays and to the 16 rows of the `x` block the trip loads. -/
theorem trip_piece (𝒱 : Variants) (c : Dev nD) (bd : Option 𝒱.V) (i : grid0.Coords)
    (arg1 : Memref sig .tc .vmem S256x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S256x512 .f32) (harg4 : arg4.IsWhole)
    (v0 v1 : Vec F S512x128 .f32) (X : BufTy.Contents (Elt F) arg1.view.ty) (k : Fin k0_t1_loop.trips) :
    tripL_k0_t1 (F := F) 𝒱 c bd i arg1 harg1 arg2 harg2 arg3 harg3 arg4 harg4 v0 v1 X k
      = [⟨Rect.unit (s := S256x512) (k0_off2 k) S16x512.size (k0_off2_inb k),
          k0_pay1 v0 v1 (View.ld (arg1.view.read (Elt F) X) (Rect.unit (s := S256x128) (k0_off1 k) S16x128.size (k0_off1_inb k)))⟩] := by
  unfold tripL_k0_t1 trip_k0_t1
  rfl

/-- THE WHOLE BODY's stores: the pieces of all the trips, over the two box blocks as loaded whole and the `x` block. -/
theorem run_pieces (c : Dev nD) (i : grid0.Coords)
    (arg1 : Memref sig .tc .vmem S256x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S256x512 .f32) (harg4 : arg4.IsWhole)
    (x0 : Vec F S256x128 .f32) (x1 x2 : Vec F S512x128 .f32) :
    (kernelRun0_A c i arg1 harg1 arg2 harg2 arg3 harg3 arg4 harg4 x0 x1 x2).1
      = pb_k0_t1 (F := F) Variants.none c none i arg1 harg1 arg2 harg2 arg3 harg3 arg4 harg4 x1 x2 (harg1.unread x0) k0_t1_loop.trips := by
  unfold kernelRun0_A
  dsimp only
  simp only [View.readAt_eq_ld, harg2.read_unread, harg3.read_unread, View.ld_unit_zero (S := S512x128) zeros2]

/-- One trip's piece is the margins' restriction to its rows: at local index `(p, u)` the stored value is the margin of
    row `16·k + p` of the `x` block against box `u`. -/
theorem piece_agree (x0 : Vec Ideal S256x128 .f32) (v0 v1 : Vec Ideal S512x128 .f32) (k : Fin k0_t1_loop.trips)
    (y : S16x512.Idx) :
    k0_pay1 (F := Ideal) v0 v1 (View.ld x0 (Rect.unit (s := S256x128) (k0_off1 k) S16x128.size (k0_off1_inb k))) y
      = Cert.Spec.margins x0 v0 v1 ((Rect.unit (s := S256x512) (k0_off2 k) S16x512.size (k0_off2_inb k)).emb y) := by
  obtain ⟨p, u, rfl⟩ : ∃ (p : Fin 16) (u : Fin 512), y = ix2 p u := ⟨y 0, y 1, eq_ix2 y⟩
  refine (Cert.KernelIdeal.Payload.pay1_apply v0 v1 _ p u).trans ?_
  unfold Cert.Spec.margins
  have hk : k.val < 16 := Nat.lt_of_lt_of_le k.isLt k0_t1_abs.2.1
  have e1 := k0_off1_eq k
  have e2 := k0_off2_eq k
  refine Cert.Spec.margin_congr _ _ _ _ _ _ _ _ _ _ (fun d => ?_) (fun d => ?_) (fun d => ?_)
  · show x0 ((Rect.unit (s := S256x128) (k0_off1 k) S16x128.size (k0_off1_inb k)).idx (ix2 p d)) = x0 _
    refine congrArg x0 (funext fun a => Fin.ext ?_)
    match a with
    | ⟨0, _⟩ =>
      show k0_off1 k 0 + 1 * p.val = k0_off2 k 0 + 1 * p.val
      rw [e1, e2]
    | ⟨1, _⟩ =>
      show k0_off1 k 1 + 1 * d.val = d.val
      rw [e1]; show 0 + 1 * d.val = d.val; omega
  · refine congrArg v0 (funext fun a => Fin.ext ?_)
    match a with
    | ⟨0, _⟩ =>
      show u.val = k0_off2 k 1 + 1 * u.val
      rw [e2]; show u.val = 0 + 1 * u.val; omega
    | ⟨1, _⟩ => rfl
  · refine congrArg v1 (funext fun a => Fin.ext ?_)
    match a with
    | ⟨0, _⟩ =>
      show u.val = k0_off2 k 1 + 1 * u.val
      rw [e2]; show u.val = 0 + 1 * u.val; omega
    | ⟨1, _⟩ => rfl

/-- A list of one piece agrees with a function as soon as that piece does. -/
theorem agree_singleton {S : Shape} (G : S.Idx → Elt Ideal .f32) (r : Rect S) (w : r.shape.Idx → Elt Ideal .f32)
    (hw : ∀ y, w y = G (r.emb y)) :
    ∀ p ∈ [(⟨r, w⟩ : View.Piece (Elt Ideal) S .f32)], ∀ y : p.1.shape.Idx, p.2 y = G (p.1.emb y) := fun p hp => by
  obtain rfl := List.mem_singleton.mp hp
  exact hw

/-- Every piece of the trips before `n` is the margins' restriction to its rectangle (induction on `n`; trip `n` adds
    its one piece in front). -/
theorem pieces_agree (𝒱 : Variants) (c : Dev nD) (bd : Option 𝒱.V) (i : grid0.Coords)
    (arg1 : Memref sig .tc .vmem S256x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S256x512 .f32) (harg4 : arg4.IsWhole)
    (x0 : Vec Ideal S256x128 .f32) (v0 v1 : Vec Ideal S512x128 .f32) :
    ∀ (n : ℕ), ∀ p ∈ pb_k0_t1 (F := Ideal) 𝒱 c bd i arg1 harg1 arg2 harg2 arg3 harg3 arg4 harg4 v0 v1 (harg1.unread x0) n,
      ∀ y : p.1.shape.Idx, p.2 y = Cert.Spec.margins x0 v0 v1 (p.1.emb y)
  | 0 => fun p hp => absurd hp (by rw [pb_k0_t1.eq_1]; exact List.not_mem_nil)
  | n + 1 => fun p hp y => by
    rw [pb_k0_t1.eq_2] at hp
    unfold pb_k0_t1Step at hp
    by_cases h : n < k0_t1_loop.trips
    · rw [dif_pos h, trip_piece, harg1.read_unread] at hp
      rcases List.mem_append.mp hp with hp | hp
      · exact agree_singleton (Cert.Spec.margins x0 v0 v1) _ _ (piece_agree x0 v0 v1 ⟨n, h⟩) p hp y
      · exact pieces_agree 𝒱 c bd i arg1 harg1 arg2 harg2 arg3 harg3 arg4 harg4 x0 v0 v1 n p hp y
    · rw [dif_neg h] at hp
      exact pieces_agree 𝒱 c bd i arg1 harg1 arg2 harg2 arg3 harg3 arg4 harg4 x0 v0 v1 n p hp y

/-- WHAT THE BODY LEAVES in the output block, from any contents: the table of margins of the `x` block's rows against
    the boxes. -/
theorem out_block (c : Dev nD) (i : grid0.Coords)
    (arg1 : Memref sig .tc .vmem S256x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S256x512 .f32) (harg4 : arg4.IsWhole)
    (x0 : Vec Ideal S256x128 .f32) (x1 x2 : Vec Ideal S512x128 .f32) :
    out0_A_3 (F := Ideal) c i arg1 harg1 arg2 harg2 arg3 harg3 arg4 harg4 x0 x1 x2 = Cert.Spec.margins x0 x1 x2 := by
  unfold out0_A_3
  rw [View.read_writes_eq_canon _ _ _ (cover0_A_3 c i arg1 harg1 arg2 harg2 arg3 harg3 arg4 harg4 x0 x1 x2)]
  funext y
  refine View.canon_apply_of_pieces (Cert.Spec.margins x0 x1 x2) _ ?_ y
    (cover0_A_3 c i arg1 harg1 arg2 harg2 arg3 harg3 arg4 harg4 x0 x1 x2 y)
  rw [run_pieces]
  exact pieces_agree Variants.none c none i arg1 harg1 arg2 harg2 arg3 harg3 arg4 harg4 x0 x1 x2 _

end Cert.KernelIdeal.BlockValue

end
-- ==== Proof.ArrayValue.lean ====
/-
  The kernel's result array after the run: the table of margins of all 2048 rows of `x` against the 512 boxes.

  The grid has 8 points. Point `t` works on rows `256·t … 256·t + 255`: its block of `x` is those rows, its blocks of the
  two box arrays are the whole arrays, and it writes back rows `256·t … 256·t + 255` of the result. What it writes back
  is the table of margins of its block's rows against the boxes, and row `r` of the block is row `256·t + r` of `x`: so
  the written block is the restriction of ONE function of the whole arrays, `(q, u) ↦ margin (row q) (box u)`, to the
  point's rows. The 8 row bands cover the array (row `q` lies in band `q / 256`), hence the array ends holding that
  function everywhere.
-/
import proofs.«103260_j6193342841089_2_alg».proof.Proof.Spec
import proofs.«103260_j6193342841089_2_alg».proof.Proof.BlockValue
import proofs.«103260_j6193342841089_2_alg».proof.Proof.Gen.KernelIdeal.Value
import Idealize.ShloMosaic.Lib.Pipeline.Value
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- Where each window's block sits at grid point `t`, decided over the 8 points: the `x` window and the result window are
    on row band `t`, column band 0; the two box windows stay on their whole arrays. -/
theorem band_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is the margins of the whole arrays, restricted to the point's row band: the body leaves
    the margins of the blocks (`out_block`), and row `r` of the `x` block is row `256·t + r` of `x`, the same row band the
    result block sits on, while the box blocks are the box arrays. -/
theorem flushed_eq (c : Dev nD) (t : Fin cfg0.N) :
    (dats m 0 c).flushed 3 t = ((cfg0.win 3).blk t).view.read (Elt Ideal)
      (Cert.Spec.margins (V m c main_arg0) (V m c main_arg1) (V m c main_arg2)) := by
  rw [flushed3_A, Cert.KernelIdeal.BlockValue.out_block]
  obtain ⟨e00, e01, e10, e11, e20, e21, e30, e31⟩ := band_facts t
  funext j
  show Cert.Spec.margins (iblk m c 0 t) (iblk m c 1 t) (iblk m c 2 t) j
    = Cert.Spec.margins (V m c main_arg0) (V m c main_arg1) (V m c main_arg2) (((cfg0.win 3).blk t).view.emb j)
  unfold Cert.Spec.margins
  have hj0 : (j 0).val < 256 := (j 0).isLt
  have hj1 : (j 1).val < 512 := (j 1).isLt
  refine Cert.Spec.margin_congr _ _ _ _ _ _ _ _ _ _ (fun d => ?_) (fun d => ?_) (fun d => ?_)
  · show V m c main_arg0 (((cfg0.win 0).blk t).view.emb (ix2 (j 0) d)) = V m c main_arg0 _
    refine congrArg (V m c main_arg0) (funext fun a => Fin.ext ?_)
    match a with
    | ⟨0, _⟩ =>
      show win0_0.index t (0 : Fin 2) * 256 + 1 * (j 0).val = win0_3.index t (0 : Fin 2) * 256 + 1 * (j 0).val
      rw [e00, e30]
    | ⟨1, _⟩ =>
      show win0_0.index t (1 : Fin 2) * 128 + 1 * d.val = d.val
      rw [e01]; omega
  · show V m c main_arg1 (((cfg0.win 1).blk t).view.emb (ix2 (j 1) d)) = V m c main_arg1 _
    refine congrArg (V m c main_arg1) (funext fun a => Fin.ext ?_)
    match a with
    | ⟨0, _⟩ =>
      show win0_1.index t (0 : Fin 2) * 512 + 1 * (j 1).val = win0_3.index t (1 : Fin 2) * 512 + 1 * (j 1).val
      rw [e10, e31]
    | ⟨1, _⟩ =>
      show win0_1.index t (1 : Fin 2) * 128 + 1 * d.val = d.val
      rw [e11]; omega
  · show V m c main_arg2 (((cfg0.win 2).blk t).view.emb (ix2 (j 1) d)) = V m c main_arg2 _
    refine congrArg (V m c main_arg2) (funext fun a => Fin.ext ?_)
    match a with
    | ⟨0, _⟩ =>
      show win0_2.index t (0 : Fin 2) * 512 + 1 * (j 1).val = win0_3.index t (1 : Fin 2) * 512 + 1 * (j 1).val
      rw [e20, e31]
    | ⟨1, _⟩ =>
      show win0_2.index t (1 : Fin 2) * 128 + 1 * d.val = d.val
      rw [e21]; omega

/-- An index of the result array is in point `t`'s block iff each coordinate is in the block's range on its axis. -/
theorem mem_blk (t : Fin cfg0.N) (i : S2048x512.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v0).slice (win0_3.rect t)).set ↔ _
  rw [View.set_slice_whole, Rect.mem_set_unit]
  exact Iff.rfl

/-- THE COVER: row `q` of the result lies in the band of point `q / 256`, and every point writes its band back. -/
theorem cover (i : S2048x512.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  have hN : grid0.N = 8 := N_0
  have ht : (i 0).val / 256 < grid0.N := by rw [hN]; omega
  obtain ⟨-, -, -, -, -, -, e30, e31⟩ := band_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e30]
    show (i 0).val / 256 * 256 ≤ (i 0).val ∧ (i 0).val < (i 0).val / 256 * 256 + 256
    omega
  | ⟨1, _⟩ =>
    show win0_3.index ⟨(i 0).val / 256, ht⟩ (1 : Fin 2) * 512 ≤ (i 1).val
      ∧ (i 1).val < win0_3.index ⟨(i 0).val / 256, ht⟩ (1 : Fin 2) * 512 + 512
    rw [e31]
    omega

/-- THE ARRAY after the run: the margins of the argument arrays, everywhere. -/
theorem final (c : Dev nD) :
    (dats m 0 c).arrAt 3 cfg0.N
      = Cert.Spec.margins (m ((c : Thread nD τ).loc main_arg0)) (m ((c : Thread nD τ).loc main_arg1))
          (m ((c : Thread nD τ).loc main_arg2)) :=
  (dats m 0 c).arrAt_eq_of_cover 3 _ (fun t _ => flushed_eq m c t) cover

/-- The kernel's run, with its result named: every weakly fair execution ends with the result array at the margins of the
    argument arrays and the arguments unchanged. -/
theorem run : θ_run defs (onTc (τ := τ) (main (F := Ideal))) ⟨m, fun _ => 0, ρ⟩ fun r => ∀ c : Dev nD,
      r.2.mem ((c : Thread nD τ).loc main_v0)
        = Cert.Spec.margins (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  The kernel and its reference compute one table.

  For queries `x : [2048, 128]` and boxes with lower corners `Wmin : [512, 128]` and upper corners `Wmax : [512, 128]`,
  the entry at `(q, u)` is the margin
      min_d min (x q d − Wmin u d) (Wmax u d − x q d),
  the minimum taken from `+∞` over the 128 coordinates (Proof/Spec.lean).

  The kernel splits the rows of `x` into 8 bands of 256 and, inside a band, into 16 chunks of 16 rows; for a chunk it
  forms the pointwise minimum of the two differences over all (row, box, coordinate) and reduces it once over the
  coordinate (Proof/Payload.lean). The chunks tile the band's block (Proof/BlockValue.lean) and the bands tile the
  array (Proof/ArrayValue.lean), so the result array is the table of margins. The reference reduces each difference
  over the coordinate and then takes the smaller of the two results; since `min` is commutative, associative and
  idempotent, that is the same margin (Proof/RefValue.lean, by `Spec.fold_min_min`). The equality holds on all
  extended reals: the finiteness of the inputs is not used.

  The idealized kernel is the kernel's own text read at the exact instance (no rewrite was applied), so there is
  nothing to preserve; the three frames are the generated frame runs, the reference's being its run with the result
  dropped.
-/
import proofs.«103260_j6193342841089_2_alg».proof.Defs
import proofs.«103260_j6193342841089_2_alg».proof.Proof.Gen.Kernel
import proofs.«103260_j6193342841089_2_alg».proof.Proof.Gen.Kernel.Skeleton
import proofs.«103260_j6193342841089_2_alg».proof.Proof.Gen.Kernel.Loops
import proofs.«103260_j6193342841089_2_alg».proof.Proof.Gen.Kernel.Launch
import proofs.«103260_j6193342841089_2_alg».proof.Proof.Gen.Kernel.Points
import proofs.«103260_j6193342841089_2_alg».proof.Proof.Gen.Kernel.Frame
import proofs.«103260_j6193342841089_2_alg».proof.Proof.Gen.KernelIdeal
import proofs.«103260_j6193342841089_2_alg».proof.Proof.Gen.KernelIdeal.Skeleton
import proofs.«103260_j6193342841089_2_alg».proof.Proof.Gen.KernelIdeal.Loops
import proofs.«103260_j6193342841089_2_alg».proof.Proof.Gen.KernelIdeal.Launch
import proofs.«103260_j6193342841089_2_alg».proof.Proof.Gen.KernelIdeal.Points
import proofs.«103260_j6193342841089_2_alg».proof.Proof.Gen.KernelIdeal.Frame
import proofs.«103260_j6193342841089_2_alg».proof.Proof.Gen.KernelIdeal.Value
import proofs.«103260_j6193342841089_2_alg».proof.Proof.Gen.ReferenceIdeal
import proofs.«103260_j6193342841089_2_alg».proof.Proof.Gen.ReferenceIdeal.Run
import proofs.«103260_j6193342841089_2_alg».proof.Proof.Gen.ReferenceIdeal.Read
import proofs.«103260_j6193342841089_2_alg».proof.Proof.Gen.Pre_finite_inputs
import proofs.«103260_j6193342841089_2_alg».proof.Proof.Spec
import proofs.«103260_j6193342841089_2_alg».proof.Proof.RefValue
import proofs.«103260_j6193342841089_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the exact instance. -/
theorem preserves : Cert.preserves_Kernel_KernelIdeal := trivial

/-- From memories that agree on `x`, `Wmin` and `Wmax`, the kernel's result array and the reference's both end at the
    table of margins of those arrays. -/
theorem algebraic : Cert.algebraic_KernelIdeal_ReferenceIdeal := by
  intro m ρ m' ρ' _ hagree
  refine ⟨fun c => Cert.Spec.margins (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
